-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 107
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x64, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x1, .f32⟩
  | .hbm, ⟨99, _⟩ => ⟨S850000x64, .f32⟩
  | .hbm, ⟨100, _⟩ => ⟨S850000x64, .f32⟩
  | .hbm, ⟨101, _⟩ => ⟨S_, .f32⟩
  | .hbm, ⟨102, _⟩ => ⟨S50000x64, .f32⟩
  | .hbm, ⟨103, _⟩ => ⟨S850000x1, .i32⟩
  | .hbm, ⟨104, _⟩ => ⟨S50000x64, .f32⟩
  | .hbm, ⟨105, _⟩ => ⟨S1x64, .f32⟩
  | .hbm, ⟨106, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x128, .f32⟩
  | .hbm, ⟨83, _⟩ => ⟨S850000x1, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x64, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000x64, .f32⟩
  | .hbm, ⟨106, _⟩ => ⟨S850000x1, .f32⟩
  | .hbm, ⟨107, _⟩ => ⟨S850000x64, .f32⟩
  | .hbm, ⟨108, _⟩ => ⟨S850000x64, .f32⟩
  | .hbm, ⟨109, _⟩ => ⟨S_, .f32⟩
  | .hbm, ⟨110, _⟩ => ⟨S50000x64, .f32⟩
  | .hbm, ⟨111, _⟩ => ⟨S850000x1, .i32⟩
  | .hbm, ⟨112, _⟩ => ⟨S50000x64, .f32⟩
  | .hbm, ⟨113, _⟩ => ⟨S1x64, .f32⟩
  | .hbm, ⟨114, _⟩ => ⟨S50000x64, .f32⟩
  | .hbm, ⟨115, _⟩ => ⟨S50000x64, .f32⟩
  | .hbm, ⟨116, _⟩ => ⟨S_, .f32⟩
  | .hbm, ⟨117, _⟩ => ⟨S50000x64, .f32⟩
  | .hbm, ⟨118, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_15 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call3_cst : Ref sig .tc := ⟨.hbm, 116, rfl⟩
abbrev main_call3_v0 : Ref sig .tc := ⟨.hbm, 117, rfl⟩
abbrev main_v84 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The three-layer graph convolution that both programs compute, as one function of the argument arrays.

  The graph has 50000 nodes and 800000 listed edges; every node also gets a self loop, so there are 850000 edges in
  all.  `sources` and `targets` are the two rows of the edge list with the self loops appended.  The degree of a node
  counts the edges that end in it, `invSqrtDegree` is degree^(-1/2) where the degree is positive and 0 elsewhere,
  and an edge's weight is the product of that quantity at its two end points.  One layer multiplies the node
  features by a weight matrix (`product*`), sends every node's row along its outgoing edges scaled by the edge's
  weight and adds up what arrives at each node (`propagate*`), then adds the bias row and takes the maximum with
  zero (`biasMax*`).  Node indices that are negative are read from the end of the node range (`nodeIndex`).
  Everything is spelt with the host operations themselves, so that either program's result can be compared with
  `encoder` operation by operation, and the gathers and scatter-adds stay closed books.
-/
import proofs.«118916_j13520557048097_1_alg».proof.ReferenceIdeal

noncomputable section

namespace Cert.GraphConv

open Idealize.ShloMosaic Cert.ReferenceIdeal Cert.ReferenceIdeal.Facts₀ Cert.ReferenceIdeal.Facts

variable {F : FTy → Type} [FloatOps F] [Cert.ReferenceIdeal.Facts]

/-- The edges' start nodes: row 0 of the edge list, then one self loop per node. -/
def sources (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' end nodes: row 1 of the edge list, then one self loop per node. -/
def targets (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The number of edges ending in each node: a one per edge added up at the edge's end node. -/
def degree (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- degree^(-1/2) where the degree is positive, zero elsewhere. -/
def invSqrtDegree (dst : (⟨S850000, .i32⟩ : BufTy).Contents (Elt F)) : (⟨S50000, .f32⟩ : BufTy).Contents (Elt F) :=
  select (cmpf .ogt (degree dst) (broadcastInDim S50000 ![] bcast_S_S50000 (constant S_ .f32 0x00000000#32))) (Host.powf (degree dst) (broadcastInDim S50000 ![] bcast_S_S50000 (constant S_ .f32 0xBF000000#32))) (broadcastInDim S50000 ![] bcast_S_S50000 (id (constant S_ .f32 0x00000000#32)))

/-- A node number as a row index: a negative number counts from the end of the node range. -/
def nodeIndex (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- An edge's weight: degree^(-1/2) at its start node times degree^(-1/2) at its end node. -/
def edgeWeight (src dst : (⟨S850000, .i32⟩ : BufTy).Contents (Elt F)) : (⟨S850000, .f32⟩ : BufTy).Contents (Elt F) :=
  mulf (Host.gather gather_S50000_S850000x1_S850000_n_0_n_n_0_1_1 (invSqrtDegree dst) (nodeIndex src)) (Host.gather gather_S50000_S850000x1_S850000_n_0_n_n_0_1_1 (invSqrtDegree dst) (nodeIndex dst))

/-- One propagation over rows of 128 features: each edge carries its start node's row scaled by the edge's weight,
    and each node adds up what its incoming edges carry. -/
def propagate128 (h : (⟨S50000x128, .f32⟩ : BufTy).Contents (Elt F)) (src dst : (⟨S850000, .i32⟩ : BufTy).Contents (Elt F))
    (w : (⟨S850000, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (nodeIndex src)) (broadcastInDim S850000x128 ![0, 1] bcast_S850000x1_S850000x128_0_1 (broadcastInDim S850000x1 ![0] bcast_S850000_S850000x1_0 w)))

/-- The same propagation over rows of 64 features. -/
def propagate64 (h : (⟨S50000x64, .f32⟩ : BufTy).Contents (Elt F)) (src dst : (⟨S850000, .i32⟩ : BufTy).Contents (Elt F))
    (w : (⟨S850000, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 h (nodeIndex src)) (broadcastInDim S850000x64 ![0, 1] bcast_S850000x1_S850000x64_0_1 (broadcastInDim S850000x1 ![0] bcast_S850000_S850000x1_0 w)))

/-- Add the bias row to every row and take the maximum with zero, over rows of 128 features. -/
def biasMax128 (a : (⟨S50000x128, .f32⟩ : BufTy).Contents (Elt F)) (b : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The same over rows of 64 features. -/
def biasMax64 (a : (⟨S50000x64, .f32⟩ : BufTy).Contents (Elt F)) (b : (⟨S64, .f32⟩ : BufTy).Contents (Elt F)) : (⟨S50000x64, .f32⟩ : BufTy).Contents (Elt F) :=
  maximumf (addf a (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- Node features times the first layer's weights. -/
def product1 (x : (⟨S50000x256, .f32⟩ : BufTy).Contents (Elt F)) (w : (⟨S256x128, .f32⟩ : BufTy).Contents (Elt F)) : (⟨S50000x128, .f32⟩ : BufTy).Contents (Elt F) :=
  Host.dotGeneral dot_S50000x256_S256x128_S50000x128_1_0_0_1_n_n none x w

/-- Node features times the second layer's weights. -/
def product2 (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- Node features times the third layer's weights. -/
def product3 (x : (⟨S50000x128, .f32⟩ : BufTy).Contents (Elt F)) (w : (⟨S128x64, .f32⟩ : BufTy).Contents (Elt F)) : (⟨S50000x64, .f32⟩ : BufTy).Contents (Elt F) :=
  Host.dotGeneral dot_S50000x128_S128x64_S50000x64_1_0_0_1_n_n none x w

/-- The three layers, one after the other, over the same edges and edge weights. -/
def encoder (x : (⟨S50000x256, .f32⟩ : BufTy).Contents (Elt F)) (e : (⟨S2x800000, .i32⟩ : BufTy).Contents (Elt F))
    (w1 : (⟨S256x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x64, .f32⟩ : BufTy).Contents (Elt F)) (b3 : (⟨S64, .f32⟩ : BufTy).Contents (Elt F)) : (⟨S50000x64, .f32⟩ : BufTy).Contents (Elt F) :=
  biasMax64 (propagate64 (product3 (biasMax128 (propagate128 (product2 (biasMax128 (propagate128 (product1 x w1)
    (sources e) (targets e) (edgeWeight (sources e) (targets e))) b1) w2)
    (sources e) (targets e) (edgeWeight (sources e) (targets e))) b2) w3)
    (sources e) (targets e) (edgeWeight (sources e) (targets e))) b3

end Cert.GraphConv

end
-- ==== Proof.ReferenceValue.lean ====
/-
  The reference program's result is the specification's `encoder` of its argument arrays: the run's composed term is
  the same operations in the same order, with the index vectors, the edge weights and each layer's steps named.
-/
import proofs.«118916_j13520557048097_1_alg».proof.Proof.ReferenceRunP
import proofs.«118916_j13520557048097_1_alg».proof.Proof.Spec

set_option maxRecDepth 16384

noncomputable section

namespace Cert.ReferenceIdeal.Bridge

open Cert.ReferenceIdeal Cert.ReferenceIdeal.Gen Idealize.ShloMosaic Idealize.ShloMosaic.TcCoe Idealize.SL.Sem

variable {F : FTy → Type} [FloatOps F]

set_option maxHeartbeats 8000000 in
/-- The reference's result array, as the run states it, is the three-layer graph convolution of the arguments. -/
theorem result_eq (m : (ℓ : Loc nD τ sig) → Buf (Elt F) ℓ) (c : Dev nD) :
    Cert.ReferenceIdeal.RunP.res_main_v84 (F := F) m c
      = Cert.GraphConv.encoder (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.RunP.res_main_v84
  rfl

end Cert.ReferenceIdeal.Bridge

end
-- ==== Proof.KernelRun.lean ====
/-
  The kernel program's run with its result named.  The program is six pipelined regions among stretches of host
  operations; its run is the launch over that list of segments.  The last thread state holds every unscoped buffer at
  the contents the fold through the segments leaves, so the result array ends at the last region's output array as
  that fold gives it, and the eight argument arrays end as launched.  What that output array IS, as a function of
  the arguments, is worked out region by region elsewhere.
-/
import proofs.«118916_j13520557048097_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Named

end
-- ==== Proof.Stretches.lean ====
/-
  The host operations of the kernel program, stretch by stretch, read from an arbitrary assignment `W` of contents to
  the buffers.  Before the first region the program builds the two index vectors (edge sources and targets with the
  self loops appended) and the edge weights; after each matrix-product region it gathers the product's rows along the
  edges, scales them by the edge weights and adds them up at the targets, and reshapes that layer's bias vector to a
  row.  Each result is stated as the corresponding function of the specification applied to what `W` holds at the
  buffers the stretch reads; a stretch leaves every buffer it does not write as it was.
-/
import proofs.«118916_j13520557048097_1_alg».proof.Proof.Gen.KernelIdeal.Launch
import proofs.«118916_j13520557048097_1_alg».proof.Proof.Gen.ReferenceIdeal
import proofs.«118916_j13520557048097_1_alg».proof.Proof.Spec
import Idealize.ShloMosaic.Lib.StableHlo.Run

set_option maxRecDepth 16384

noncomputable section

namespace Cert.KernelIdeal.Stretches

open Cert.KernelIdeal Cert.KernelIdeal.Gen Cert.KernelIdeal.Facts₀ Cert.KernelIdeal.Facts Cert.GraphConv
open Idealize.ShloMosaic Idealize.ShloMosaic.TcCoe Idealize.SL.Sem Idealize.ShloMosaic.StableHlo

variable {F : FTy → Type} [FloatOps F]
variable (W : Valuation τ sig (Elt F))

/-! ## Before the first region: the index vectors and the edge weights -/

set_option maxHeartbeats 8000000 in
/-- The edge sources: row 0 of the edge list, then the self loops. -/
theorem prelude_sources : after hostOps0_2 (after hostOps0_1 (after hostOps0 W)) (Proc.devRef .tc main_v3) = sources (F := F) (W (Proc.devRef .tc main_arg1)) := by
  after_results_simp
  rfl

set_option maxHeartbeats 8000000 in
/-- The edge targets: row 1 of the edge list, then the self loops. -/
theorem prelude_targets : after hostOps0_2 (after hostOps0_1 (after hostOps0 W)) (Proc.devRef .tc main_v6) = targets (F := F) (W (Proc.devRef .tc main_arg1)) := by
  after_results_simp
  rfl

set_option maxHeartbeats 16000000 in
/-- The edge weights: degree^(-1/2) at the source times degree^(-1/2) at the target. -/
theorem prelude_weight : after hostOps0_2 (after hostOps0_1 (after hostOps0 W)) (Proc.devRef .tc main_v30)
    = edgeWeight (F := F) (sources (W (Proc.devRef .tc main_arg1))) (targets (W (Proc.devRef .tc main_arg1))) := by
  after_results_simp
  rfl

set_option maxHeartbeats 4000000 in
theorem prelude_keeps_arg0 : after hostOps0_2 (after hostOps0_1 (after hostOps0 W)) (Proc.devRef .tc main_arg0) = W (Proc.devRef .tc main_arg0) := by
  after_results_simp
set_option maxHeartbeats 4000000 in
theorem prelude_keeps_arg2 : after hostOps0_2 (after hostOps0_1 (after hostOps0 W)) (Proc.devRef .tc main_arg2) = W (Proc.devRef .tc main_arg2) := by
  after_results_simp
set_option maxHeartbeats 4000000 in
theorem prelude_keeps_arg3 : after hostOps0_2 (after hostOps0_1 (after hostOps0 W)) (Proc.devRef .tc main_arg3) = W (Proc.devRef .tc main_arg3) := by
  after_results_simp
set_option maxHeartbeats 4000000 in
theorem prelude_keeps_arg4 : after hostOps0_2 (after hostOps0_1 (after hostOps0 W)) (Proc.devRef .tc main_arg4) = W (Proc.devRef .tc main_arg4) := by
  after_results_simp
set_option maxHeartbeats 4000000 in
theorem prelude_keeps_arg5 : after hostOps0_2 (after hostOps0_1 (after hostOps0 W)) (Proc.devRef .tc main_arg5) = W (Proc.devRef .tc main_arg5) := by
  after_results_simp
set_option maxHeartbeats 4000000 in
theorem prelude_keeps_arg6 : after hostOps0_2 (after hostOps0_1 (after hostOps0 W)) (Proc.devRef .tc main_arg6) = W (Proc.devRef .tc main_arg6) := by
  after_results_simp
set_option maxHeartbeats 4000000 in
theorem prelude_keeps_arg7 : after hostOps0_2 (after hostOps0_1 (after hostOps0 W)) (Proc.devRef .tc main_arg7) = W (Proc.devRef .tc main_arg7) := by
  after_results_simp

/-! ## After the first matrix product -/

set_option maxHeartbeats 4000000 in
/-- The first layer's weighted sums over incoming edges. -/
theorem layer1_sum : after hostOps1 W (Proc.devRef .tc main_v44)
    = propagate128 (F := F) (W (Proc.devRef .tc main_v31)) (W (Proc.devRef .tc main_v3)) (W (Proc.devRef .tc main_v6)) (W (Proc.devRef .tc main_v30)) := by
  after_results_simp
  rfl

set_option maxHeartbeats 4000000 in
/-- The first layer's bias vector as a row. -/
theorem layer1_bias : after hostOps1 W (Proc.devRef .tc main_v45) = shapeCast S1x128 (W (Proc.devRef .tc main_arg3)) Facts₀.shapeCasts_S128_S1x128 := by
  after_results_simp
  rfl

set_option maxHeartbeats 4000000 in
theorem layer1_keeps_v3 : after hostOps1 W (Proc.devRef .tc main_v3) = W (Proc.devRef .tc main_v3) := by
  after_results_simp
set_option maxHeartbeats 4000000 in
theorem layer1_keeps_v6 : after hostOps1 W (Proc.devRef .tc main_v6) = W (Proc.devRef .tc main_v6) := by
  after_results_simp
set_option maxHeartbeats 4000000 in
theorem layer1_keeps_v30 : after hostOps1 W (Proc.devRef .tc main_v30) = W (Proc.devRef .tc main_v30) := by
  after_results_simp
set_option maxHeartbeats 4000000 in
theorem layer1_keeps_arg4 : after hostOps1 W (Proc.devRef .tc main_arg4) = W (Proc.devRef .tc main_arg4) := by
  after_results_simp
set_option maxHeartbeats 4000000 in
theorem layer1_keeps_arg5 : after hostOps1 W (Proc.devRef .tc main_arg5) = W (Proc.devRef .tc main_arg5) := by
  after_results_simp
set_option maxHeartbeats 4000000 in
theorem layer1_keeps_arg6 : after hostOps1 W (Proc.devRef .tc main_arg6) = W (Proc.devRef .tc main_arg6) := by
  after_results_simp
set_option maxHeartbeats 4000000 in
theorem layer1_keeps_arg7 : after hostOps1 W (Proc.devRef .tc main_arg7) = W (Proc.devRef .tc main_arg7) := by
  after_results_simp

/-! ## After the second matrix product -/

set_option maxHeartbeats 4000000 in
/-- The second layer's weighted sums over incoming edges. -/
theorem layer2_sum : after hostOps3 W (Proc.devRef .tc main_v60)
    = propagate128 (F := F) (W (Proc.devRef .tc main_v47)) (W (Proc.devRef .tc main_v3)) (W (Proc.devRef .tc main_v6)) (W (Proc.devRef .tc main_v30)) := by
  after_results_simp
  rfl

set_option maxHeartbeats 4000000 in
/-- The second layer's bias vector as a row. -/
theorem layer2_bias : after hostOps3 W (Proc.devRef .tc main_v61) = shapeCast S1x128 (W (Proc.devRef .tc main_arg5)) Facts₀.shapeCasts_S128_S1x128 := by
  after_results_simp
  rfl

set_option maxHeartbeats 4000000 in
theorem layer2_keeps_v3 : after hostOps3 W (Proc.devRef .tc main_v3) = W (Proc.devRef .tc main_v3) := by
  after_results_simp
set_option maxHeartbeats 4000000 in
theorem layer2_keeps_v6 : after hostOps3 W (Proc.devRef .tc main_v6) = W (Proc.devRef .tc main_v6) := by
  after_results_simp
set_option maxHeartbeats 4000000 in
theorem layer2_keeps_v30 : after hostOps3 W (Proc.devRef .tc main_v30) = W (Proc.devRef .tc main_v30) := by
  after_results_simp
set_option maxHeartbeats 4000000 in
theorem layer2_keeps_arg6 : after hostOps3 W (Proc.devRef .tc main_arg6) = W (Proc.devRef .tc main_arg6) := by
  after_results_simp
set_option maxHeartbeats 4000000 in
theorem layer2_keeps_arg7 : after hostOps3 W (Proc.devRef .tc main_arg7) = W (Proc.devRef .tc main_arg7) := by
  after_results_simp

/-! ## After the third matrix product -/

set_option maxHeartbeats 4000000 in
/-- The third layer's weighted sums over incoming edges. -/
theorem layer3_sum : after hostOps5 W (Proc.devRef .tc main_v76)
    = propagate64 (F := F) (W (Proc.devRef .tc main_v63)) (W (Proc.devRef .tc main_v3)) (W (Proc.devRef .tc main_v6)) (W (Proc.devRef .tc main_v30)) := by
  after_results_simp
  rfl

set_option maxHeartbeats 4000000 in
/-- The third layer's bias vector as a row. -/
theorem layer3_bias : after hostOps5 W (Proc.devRef .tc main_v77) = shapeCast S1x64 (W (Proc.devRef .tc main_arg7)) Facts₀.shapeCasts_S64_S1x64 := by
  after_results_simp
  rfl

end Cert.KernelIdeal.Stretches

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.ProductRegion0.lean ====
/-
  The first matrix-product region: the region's result array, after all ten grid points have written their blocks
  back, is the product of the two argument arrays as the region found them, over the extended reals.

  The left array has 50000 rows and is read in ten blocks of 5000 rows; the right array is read whole at every point.
  Entry (p, q) of the body's result at point t is the sum over k of the left block at (p, k) times the right matrix at
  (k, q) — narrowing the operands is the identity over the extended reals, and the product is accumulated into zero —,
  which is the sum over k of row 5000 t + p of the left array times column q of the right one; the host's product has
  the same sum at (5000 t + p, q), and the ten blocks tile the result array.
-/
import proofs.«118916_j13520557048097_1_alg».proof.Proof.Gen.KernelIdeal.Frame
import proofs.«118916_j13520557048097_1_alg».proof.Proof.Spec
import proofs.«118916_j13520557048097_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ProductRegion0

open Cert.KernelIdeal Cert.KernelIdeal.Gen Cert.KernelIdeal.Facts₀ Cert.KernelIdeal.Facts

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- Entry (p, q) of the body's result: the sum over k of the left block at (p, k) times the right block at (k, q).
    Over the extended reals the narrowing of the operands is the identity, and the product is accumulated into zero. -/
theorem payload_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact Cert.PlainDot.matmul_zero_apply _ rfl none _ _ p q

/-- The index maps over the grid: at point t the left operand's block and the result's block are block (t, 0) of their
    arrays, and the right operand's block is always block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row 5000 t + p of the array: there are ten blocks of 5000 rows. -/
theorem row_lt (t : Fin cfg0.N) (p : Fin 5000) : 5000 * t.val + p.val < 50000 := by
  have h := t.isLt
  have hN : cfg0.N = 10 := N_0
  omega

/-- The left operand's block at point t is rows 5000 t … 5000 t + 4999 of its array. -/
theorem left_block_apply (c : Dev nD) (t : Fin cfg0.N) (p : Fin 5000) (k : Fin 256) :
    (iblk0 V c 0 t : Vec Ideal S5000x256 .f32) (ix2 p k)
      = (V c main_arg0 : S50000x256.Idx → Elt Ideal .f32) (ix2 ⟨5000 * t.val + p.val, row_lt t p⟩ k) := by
  obtain ⟨e0, e1, -⟩ := index_facts t
  unfold iblk0
  rw [View.read_apply]
  show V c main_arg0 (((cfg0.win 0).blk t).view.emb (ix2 p k)) = V c main_arg0 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 256 + 1 * k.val = k.val; rw [e1]; omega

/-- The right operand's one block is its whole array. -/
theorem right_block_apply (c : Dev nD) (t : Fin cfg0.N) (k : Fin 256) (q : Fin 128) :
    (iblk0 V c 1 t : Vec Ideal S256x128 .f32) (ix2 k q)
      = (V c main_arg2 : S256x128.Idx → Elt Ideal .f32) (ix2 k q) := by
  obtain ⟨-, -, e2, e3, -⟩ := index_facts t
  unfold iblk0
  rw [View.read_apply]
  show V c main_arg2 (((cfg0.win 1).blk t).view.emb (ix2 k q)) = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- What the region must leave in its result array: the product of the two argument arrays. -/
abbrev G (c : Dev nD) : Vec Ideal S50000x128 .f32 :=
  Cert.GraphConv.product1 (F := Ideal) (V c main_arg0) (V c main_arg2)

/-- The left argument array as the region finds it. -/
abbrev lhs (c : Dev nD) : Vec Ideal S50000x256 .f32 := V c main_arg0
/-- The right argument array as the region finds it. -/
abbrev rhs (c : Dev nD) : Vec Ideal S256x128 .f32 := V c main_arg2

/-- Entry (r, q) of the product of the arrays: the sum over k of the left array at (r, k) times the right array at (k, q). -/
theorem G_apply (c : Dev nD) (r : Fin 50000) (q : Fin 128) :
    G V c (ix2 r q) = ∑ k : Fin 256, lhs V c (ix2 r k) * rhs V c (ix2 k q) := by
  unfold G Cert.GraphConv.product1
  exact Cert.PlainDot.dotGeneral_apply _ rfl none .single _ _ r q

/-- What point t writes back is block t of the product of the arrays: entry (p, q) of the body's result is the sum over k
    of row 5000 t + p of the left array times column q of the right one, and that entry sits at row 5000 t + p, column q. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨-, -, -, -, e4, e5⟩ := index_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = G V c (((cfg0.win 2).blk t).view.emb (ix2 p q))
  have hemb : ((cfg0.win 2).blk t).view.emb (ix2 p q) = (ix2 ⟨5000 * t.val + p.val, row_lt t p⟩ q : S50000x128.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  rw [hemb]
  refine ((payload_apply _ _ p q).trans ?_).trans (G_apply V c _ q).symm
  refine Finset.sum_congr rfl fun k _ => ?_
  rw [left_block_apply, right_block_apply]

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The ten blocks of 5000 rows cover the 50000 rows: row r lies in the block of point r / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e4, e5⟩ := index_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- The result array after the region: the product of the two argument arrays as the region found them. -/
theorem final (c : Dev nD) :
    (dat0 (F := Ideal) V c).arrAt 2 cfg0.N = Cert.GraphConv.product1 (F := Ideal) (V c main_arg0) (V c main_arg2) :=
  (dat0 V c).arrAt_eq_of_cover 2 (G V c) (fun t _ => flushed_eq V c t) cover

end Cert.KernelIdeal.ProductRegion0

end
-- ==== Proof.ProductRegion2.lean ====
/-
  The second matrix-product region: the region's result array, after all ten grid points have written their blocks
  back, is the product of the two argument arrays as the region found them, over the extended reals.

  The left array has 50000 rows and is read in ten blocks of 5000 rows; the right array is read whole at every point.
  Entry (p, q) of the body's result at point t is the sum over k of the left block at (p, k) times the right matrix at
  (k, q) — narrowing the operands is the identity over the extended reals, and the product is accumulated into zero —,
  which is the sum over k of row 5000 t + p of the left array times column q of the right one; the host's product has
  the same sum at (5000 t + p, q), and the ten blocks tile the result array.
-/
import proofs.«118916_j13520557048097_1_alg».proof.Proof.Gen.KernelIdeal.Frame
import proofs.«118916_j13520557048097_1_alg».proof.Proof.Spec
import proofs.«118916_j13520557048097_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ProductRegion2

open Cert.KernelIdeal Cert.KernelIdeal.Gen Cert.KernelIdeal.Facts₀ Cert.KernelIdeal.Facts

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- Entry (p, q) of the body's result: the sum over k of the left block at (p, k) times the right block at (k, q).
    Over the extended reals the narrowing of the operands is the identity, the left block is first reshaped to its own
    shape, which changes nothing, and the product is accumulated into zero. -/
theorem payload_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self]
  exact Cert.PlainDot.matmul_zero_apply _ rfl none _ _ p q

/-- The index maps over the grid: at point t the left operand's block and the result's block are block (t, 0) of their
    arrays, and the right operand's block is always block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of block t is row 5000 t + p of the array: there are ten blocks of 5000 rows. -/
theorem row_lt (t : Fin cfg2.N) (p : Fin 5000) : 5000 * t.val + p.val < 50000 := by
  have h := t.isLt
  have hN : cfg2.N = 10 := N_2
  omega

/-- The left operand's block at point t is rows 5000 t … 5000 t + 4999 of its array. -/
theorem left_block_apply (c : Dev nD) (t : Fin cfg2.N) (p : Fin 5000) (k : Fin 128) :
    (iblk2 V c 0 t : Vec Ideal S5000x128 .f32) (ix2 p k)
      = (V c main_v46 : S50000x128.Idx → Elt Ideal .f32) (ix2 ⟨5000 * t.val + p.val, row_lt t p⟩ k) := by
  obtain ⟨e0, e1, -⟩ := index_facts t
  unfold iblk2
  rw [View.read_apply]
  show V c main_v46 (((cfg2.win 0).blk t).view.emb (ix2 p k)) = V c main_v46 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- The right operand's one block is its whole array. -/
theorem right_block_apply (c : Dev nD) (t : Fin cfg2.N) (k : Fin 128) (q : Fin 128) :
    (iblk2 V c 1 t : Vec Ideal S128x128 .f32) (ix2 k q)
      = (V c main_arg4 : S128x128.Idx → Elt Ideal .f32) (ix2 k q) := by
  obtain ⟨-, -, e2, e3, -⟩ := index_facts t
  unfold iblk2
  rw [View.read_apply]
  show V c main_arg4 (((cfg2.win 1).blk t).view.emb (ix2 k q)) = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What the region must leave in its result array: the product of the two argument arrays. -/
abbrev G (c : Dev nD) : Vec Ideal S50000x128 .f32 :=
  Cert.GraphConv.product2 (F := Ideal) (V c main_v46) (V c main_arg4)

/-- The left argument array as the region finds it. -/
abbrev lhs (c : Dev nD) : Vec Ideal S50000x128 .f32 := V c main_v46
/-- The right argument array as the region finds it. -/
abbrev rhs (c : Dev nD) : Vec Ideal S128x128 .f32 := V c main_arg4

/-- Entry (r, q) of the product of the arrays: the sum over k of the left array at (r, k) times the right array at (k, q). -/
theorem G_apply (c : Dev nD) (r : Fin 50000) (q : Fin 128) :
    G V c (ix2 r q) = ∑ k : Fin 128, lhs V c (ix2 r k) * rhs V c (ix2 k q) := by
  unfold G Cert.GraphConv.product2
  exact Cert.PlainDot.dotGeneral_apply _ rfl none .single _ _ r q

/-- What point t writes back is block t of the product of the arrays: entry (p, q) of the body's result is the sum over k
    of row 5000 t + p of the left array times column q of the right one, and that entry sits at row 5000 t + p, column q. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := index_facts t
  funext j
  obtain ⟨p, q, rfl⟩ : ∃ (p : Fin 5000) (q : Fin 128), j = ix2 p q := ⟨j 0, j 1, eq_ix2 j⟩
  show k2_pay1 (iblk2 V c 0 t) (iblk2 V c 1 t) (ix2 p q) = G V c (((cfg2.win 2).blk t).view.emb (ix2 p q))
  have hemb : ((cfg2.win 2).blk t).view.emb (ix2 p q) = (ix2 ⟨5000 * t.val + p.val, row_lt t p⟩ q : S50000x128.Idx) := by
    funext a
    apply Fin.ext
    match a with
    | ⟨0, _⟩ => show win2_2.index t (0 : Fin 2) * 5000 + 1 * p.val = 5000 * t.val + p.val; rw [e4]; omega
    | ⟨1, _⟩ => show win2_2.index t (1 : Fin 2) * 128 + 1 * q.val = q.val; rw [e5]; omega
  rw [hemb]
  refine ((payload_apply _ _ p q).trans ?_).trans (G_apply V c _ q).symm
  refine Finset.sum_congr rfl fun k _ => ?_
  rw [left_block_apply, right_block_apply]

/-- An index of the result array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- The ten blocks of 5000 rows cover the 50000 rows: row r lies in the block of point r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, e4, e5⟩ := index_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 128 ≤ (i 1).val ∧ (i 1).val < win2_2.index t (1 : Fin 2) * 128 + 128; rw [e5]; omega

/-- The result array after the region: the product of the two argument arrays as the region found them. -/
theorem final (c : Dev nD) :
    (dat2 (F := Ideal) V c).arrAt 2 cfg2.N = Cert.GraphConv.product2 (F := Ideal) (V c main_v46) (V c main_arg4) :=
  (dat2 V c).arrAt_eq_of_cover 2 (G V c) (fun t _ => flushed_eq V c t) cover

end Cert.KernelIdeal.ProductRegion2

end
-- ==== Proof.ProductRegion4.lean ====
/-
  The third matrix-product region: the region's result array, after all ten grid points have written their blocks
  back, is the product of the two argument arrays as the region found them, over the extended reals.

  The left array has 50000 rows and is read in ten blocks of 5000 rows; the right array is read whole at every point.
  Entry (p, q) of the body's result at point t is the sum over k of the left block at (p, k) times the right matrix at
  (k, q) — narrowing the operands is the identity over the extended reals, and the product is accumulated into zero —,
  which is the sum over k of row 5000 t + p of the left array times column q of the right one; the host's product has
  the same sum at (5000 t + p, q), and the ten blocks tile the result array.
-/
import proofs.«118916_j13520557048097_1_alg».proof.Proof.Gen.KernelIdeal.Frame
import proofs.«118916_j13520557048097_1_alg».proof.Proof.Spec
import proofs.«118916_j13520557048097_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ProductRegion4

open Cert.KernelIdeal Cert.KernelIdeal.Gen Cert.KernelIdeal.Facts₀ Cert.KernelIdeal.Facts

variable [Cert.ReferenceIdeal.Facts]
variable (V : (c : Dev nD) → (b : Ref sig .tc) → Buf (Elt Ideal) ((c : Thread nD τ).loc b))

theorem hz : (![0, 0] : Fin 2 → Nat) = fun _ => 0 := funext fun a => by fin_cases a <;> rfl

/-- Entry (p, q) of the body's result: the sum over k of the left block at (p, k) times the right block at (k, q).
    Over the extended reals the narrowing of the operands is the identity, the left block is first reshaped to its own
    shape, which changes nothing, and the product is accumulated into zero. -/
theorem payload_apply (x0 : Vec Ideal S5000x128 .f32) (x1 : Vec Ideal S128x64 .f32) (p : Fin 5000) (q : Fin 64) :
    k4_pay1 x0 x1 (ix2 p q) = ∑ k : Fin 128, x0 (ix2 p k) * x1 (ix2 k q) := by
  unfold k4_pay1
  simp only [shapeCast_self]
  exact Cert.PlainDot.matmul_zero_apply _ rfl none _ _ p q

/-- The index maps over the grid: at point t the left operand's block and the result's block are block (t, 0) of their
    arrays, and the right operand's block is always block (0, 0). -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of block t is row 5000 t + p of the array: there are ten blocks of 5000 rows. -/
theorem row_lt (t : Fin cfg4.N) (p : Fin 5000) : 5000 * t.val + p.val < 50000 := by
  have h := t.isLt
  have hN : cfg4.N = 10 := N_4
  omega

/-- The left operand's block at point t is rows 5000 t … 5000 t + 4999 of its array. -/
theorem left_block_apply (c : Dev nD) (t : Fin cfg4.N) (p : Fin 5000) (k : Fin 128) :
    (iblk4 V c 0 t : Vec Ideal S5000x128 .f32) (ix2 p k)
      = (V c main_v62 : S50000x128.Idx → Elt Ideal .f32) (ix2 ⟨5000 * t.val + p.val, row_lt t p⟩ k) := by
  obtain ⟨e0, e1, -⟩ := index_facts t
  unfold iblk4
  rw [View.read_apply]
  show V c main_v62 (((cfg4.win 0).blk t).view.emb (ix2 p k)) = V c main_v62 _
  congr 1
  funext a
  apply Fin.ext
  match a with
  | ⟨0, _⟩ => show win4_0.index t (0 : Fin 2) * 5000 + 1 * p.val = 5000 * t.val + p.val; rw [e0]; omega
  | ⟨1, _⟩ => show win4_0.index t (1 : Fin 2) * 128 + 1 * k.val = k.val; rw [e1]; omega

/-- The right operand's one block is its whole array. -/
theorem right_block_apply (c : Dev nD) (t : Fin cfg4.N) (k : Fin 128) (q : Fin 64) :
    (iblk4 V c 1 t : Vec Ideal S128x64 .f32) (ix2 k q)
      = (V c main_arg6 : S128x64.Idx → Elt Ideal .f32) (ix2 k q) := by
  obtain ⟨-, -, e2, e3, -⟩ := index_facts t
  unfold iblk4
  rw [View.read_apply]
  show V c main_arg6 (((cfg4.win 1).blk t).view.emb (ix2 k q)) = V c main_arg6 _
  congr 1
  funext a
  apply Fin.ext
  match a with
  | ⟨0, _⟩ => show win4_1.index t (0 : Fin 2) * 128 + 1 * k.val = k.val; rw [e2]; omega
  | ⟨1, _⟩ => show win4_1.index t (1 : Fin 2) * 64 + 1 * q.val = q.val; rw [e3]; omega

/-- What the region must leave in its result array: the product of the two argument arrays. -/
abbrev G (c : Dev nD) : Vec Ideal S50000x64 .f32 :=
  Cert.GraphConv.product3 (F := Ideal) (V c main_v62) (V c main_arg6)

/-- The left argument array as the region finds it. -/
abbrev lhs (c : Dev nD) : Vec Ideal S50000x128 .f32 := V c main_v62
/-- The right argument array as the region finds it. -/
abbrev rhs (c : Dev nD) : Vec Ideal S128x64 .f32 := V c main_arg6

/-- Entry (r, q) of the product of the arrays: the sum over k of the left array at (r, k) times the right array at (k, q). -/
theorem G_apply (c : Dev nD) (r : Fin 50000) (q : Fin 64) :
    G V c (ix2 r q) = ∑ k : Fin 128, lhs V c (ix2 r k) * rhs V c (ix2 k q) := by
  unfold G Cert.GraphConv.product3
  exact Cert.PlainDot.dotGeneral_apply _ rfl none .single _ _ r q

/-- What point t writes back is block t of the product of the arrays: entry (p, q) of the body's result is the sum over k
    of row 5000 t + p of the left array times column q of the right one, and that entry sits at row 5000 t + p, column q. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  obtain ⟨-, -, -, -, e4, e5⟩ := index_facts t
  funext j
  obtain ⟨p, q, rfl⟩ : ∃ (p : Fin 5000) (q : Fin 64), j = ix2 p q := ⟨j 0, j 1, eq_ix2 j⟩
  show k4_pay1 (iblk4 V c 0 t) (iblk4 V c 1 t) (ix2 p q) = G V c (((cfg4.win 2).blk t).view.emb (ix2 p q))
  have hemb : ((cfg4.win 2).blk t).view.emb (ix2 p q) = (ix2 ⟨5000 * t.val + p.val, row_lt t p⟩ q : S50000x64.Idx) := by
    funext a
    apply Fin.ext
    match a with
    | ⟨0, _⟩ => show win4_2.index t (0 : Fin 2) * 5000 + 1 * p.val = 5000 * t.val + p.val; rw [e4]; omega
    | ⟨1, _⟩ => show win4_2.index t (1 : Fin 2) * 64 + 1 * q.val = q.val; rw [e5]; omega
  rw [hemb]
  refine ((payload_apply _ _ p q).trans ?_).trans (G_apply V c _ q).symm
  refine Finset.sum_congr rfl fun k _ => ?_
  rw [left_block_apply, right_block_apply]

/-- An index of the result array is in point t's block iff each coordinate is in the block's range on its axis. -/
theorem mem_blk (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v63).slice (win4_2.rect t)).set ↔ _
  rw [View.set_slice_whole, Rect.mem_set_unit]
  exact Iff.rfl

/-- The ten blocks of 5000 rows cover the 50000 rows: row r lies in the block of point r / 5000. -/
theorem cover (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  have hN : cfg4.N = 10 := N_4
  obtain ⟨t, ht⟩ : ∃ t : Fin cfg4.N, t.val = (i 0).val / 5000 := ⟨⟨(i 0).val / 5000, by omega⟩, rfl⟩
  obtain ⟨-, -, -, -, e4, e5⟩ := index_facts t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 64 ≤ (i 1).val ∧ (i 1).val < win4_2.index t (1 : Fin 2) * 64 + 64; rw [e5]; omega

/-- The result array after the region: the product of the two argument arrays as the region found them. -/
theorem final (c : Dev nD) :
    (dat4 (F := Ideal) V c).arrAt 2 cfg4.N = Cert.GraphConv.product3 (F := Ideal) (V c main_v62) (V c main_arg6) :=
  (dat4 V c).arrAt_eq_of_cover 2 (G V c) (fun t _ => flushed_eq V c t) cover

end Cert.KernelIdeal.ProductRegion4

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.BiasRegion1.lean ====
/-
  The first bias-and-maximum region, from blocks to the array.

  The region walks ten blocks of 5000 rows.  At each block it adds to every row of the block the one row `[1, 128]`
  it is given and takes the maximum with zero; the result's block goes where the entries' block came from.  So entry
  `(5000 t + p, q)` of the result is `max (a (5000 t + p, q) + row (0, q)) 0`, and since the ten blocks cover the
  50000 rows the whole result array is that function of the two arrays.  When the row is a vector of 128 entries laid
  out as a row, entry `(0, q)` of it is entry `q` of the vector, and the specification's two broadcasts of the vector read
  the same entry: the result is the specification's bias and maximum.
-/
import proofs.«118916_j13520557048097_1_alg».proof.Proof.Gen.KernelIdeal.Frame
import proofs.«118916_j13520557048097_1_alg».proof.Proof.Spec
import proofs.«118916_j13520557048097_1_alg».proof.Proof.LibRowVector
import proofs.«118916_j13520557048097_1_alg».proof.Proof.LibBroadcasts
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRegion1

open Cert.KernelIdeal Cert.KernelIdeal.Gen Cert.KernelIdeal.Facts₀ Cert.KernelIdeal.Facts

variable [Cert.ReferenceIdeal.Facts]
variable (V : (c : Dev nD) → (b : Ref sig .tc) → Buf (Elt Ideal) ((c : Thread nD τ).loc b))

/-- The zeros of a pair of offsets, however spelt. -/
theorem hz : (![0, 0] : Fin 2 → Nat) = fun _ => 0 := funext fun a => by fin_cases a <;> rfl

/-- The array the region leaves: entry `(r, q)` is the maximum of `a (r, q) + row (0, q)` and zero. -/
def G (a : S50000x128.Idx → Elt Ideal .f32) (row : S1x128.Idx → Elt Ideal .f32) : S50000x128.Idx → Elt Ideal .f32 :=
  fun i => max (a i + row (ix2 0 (i 1))) (Ideal.ofBits .f32 0x00000000#32)

/-- `G` at an entry given by its row and column. -/
theorem G_apply (a : S50000x128.Idx → Elt Ideal .f32) (row : S1x128.Idx → Elt Ideal .f32) (r : Fin 50000) (q : Fin 128) :
    G a row (ix2 r q) = max (a (ix2 r q) + row (ix2 0 q)) (Ideal.ofBits .f32 0x00000000#32) := rfl

/-- The body's arithmetic at an entry of a block: the block's entry plus the row's entry of the same column,
    then the maximum with zero. -/
theorem payload_apply (x0 : Vec Ideal S5000x128 .f32) (x1 : Vec Ideal S1x128 .f32) (p : Fin 5000) (q : Fin 128) :
    k1_pay1 x0 x1 (ix2 p q) = max (x0 (ix2 p q) + x1 (ix2 0 q)) (Ideal.ofBits .f32 0x00000000#32) := by
  unfold k1_pay1
  show max (shapeCast S5000x128 x0 _ (ix2 p q) + broadcastTo S5000x128 (shapeCast S1x128 x1 _) _ (ix2 p q))
      (Ideal.ofBits .f32 0x00000000#32) = _
  rw [shapeCast_self, shapeCast_self]
  rw [broadcastTo_apply x1 _ (ix2 p q) (ix2 0 q) (fun a => by
    match a with
    | ⟨0, _⟩ => show (0 : ℕ) = if (1 : ℕ) = 1 then 0 else p.val; rw [if_pos rfl]
    | ⟨1, _⟩ => show q.val = if (128 : ℕ) = 1 then 0 else q.val; rw [if_neg (by decide)])]

/-- The specification at an entry: the entry plus the bias at the entry's column, then the maximum with zero. -/
theorem spec_apply (a : (⟨Cert.ReferenceIdeal.S50000x128, .f32⟩ : BufTy).Contents (Elt Ideal))
    (b : (⟨Cert.ReferenceIdeal.S128, .f32⟩ : BufTy).Contents (Elt Ideal)) (r : Fin 50000) (q : Fin 128) :
    Cert.GraphConv.biasMax128 (F := Ideal) a b (ix2 r q) = max (a (ix2 r q) + b (ix1 q)) (Ideal.ofBits .f32 0x00000000#32) := by
  unfold Cert.GraphConv.biasMax128
  rw [maximumf_apply, addf_apply, Cert.Broadcasts.downRows_apply, Cert.Broadcasts.splat_apply, constant_apply]

/-- With the bias vector laid out as a row, `G` at an entry reads the vector at the entry's column. -/
theorem G_row_apply (a : S50000x128.Idx → Elt Ideal .f32) (b : S128.Idx → Elt Ideal .f32) (h : S128.ShapeCasts S1x128)
    (r : Fin 50000) (q : Fin 128) :
    G a (shapeCast S1x128 b h) (ix2 r q) = max (a (ix2 r q) + b (ix1 q)) (Ideal.ofBits .f32 0x00000000#32) := by
  rw [G_apply, Cert.RowVector.reshape_apply]
  have hq : (fun a : Fin 1 => (ix2 (0 : Fin 1) q : (⟨2, ![1, 128]⟩ : Shape).Idx) a.succ) = ix1 q :=
    funext fun a => by match a with | ⟨0, _⟩ => rfl
  rw [hq]

/-- The index maps over the grid: the block of the entries and of the result at point `t` is block `(t, 0)`, the
    bias row's block is always block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of block `t` is a row of the array. -/
theorem row_lt (t : Fin cfg1.N) (p : Fin 5000) : 5000 * t.val + p.val < 50000 := by
  have h : t.val < grid1.N := t.isLt
  rw [N_1] at h
  omega

/-- Where an entry of the result's block at point `t` sits in the array: row `5000 t + p`, the same column. -/
theorem emb_out (t : Fin cfg1.N) (p : Fin 5000) (q : Fin 128) :
    ((cfg1.win 2).blk t).view.emb (ix2 p q) = (ix2 ⟨5000 * t.val + p.val, row_lt t p⟩ q : S50000x128.Idx) := by
  obtain ⟨e0, e1, e2, e3, e4, e5⟩ := idx_facts t
  funext a; apply Fin.ext
  match a with
  | ⟨0, _⟩ => show win1_2.index t (0 : Fin 2) * 5000 + 1 * p.val = 5000 * t.val + p.val; omega
  | ⟨1, _⟩ => show win1_2.index t (1 : Fin 2) * 128 + 1 * q.val = q.val; omega

/-- The block of the first array at point `t`, at an entry: the array at row `5000 t + p`. -/
theorem read_entries (c : Dev nD) (t : Fin cfg1.N) (p : Fin 5000) (q : Fin 128) :
    iblk1 V c 0 t (ix2 p q) = V c main_v44 (ix2 ⟨5000 * t.val + p.val, row_lt t p⟩ q) := by
  obtain ⟨e0, e1, e2, e3, e4, e5⟩ := idx_facts t
  show V c main_v44 (((cfg1.win 0).blk t).view.emb (ix2 p q)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * q.val = q.val; omega

/-- The block of the row at any point is the whole row. -/
theorem read_row (c : Dev nD) (t : Fin cfg1.N) (q : Fin 128) :
    iblk1 V c 1 t (ix2 0 q) = V c main_v45 (ix2 0 q) := by
  obtain ⟨e0, e1, e2, e3, e4, e5⟩ := idx_facts t
  show V c main_v45 (((cfg1.win 1).blk t).view.emb (ix2 0 q)) = _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- What point `t` writes back is block `t` of `G` of the two arrays as the region finds them. -/
theorem flushed_eq (c : Dev nD) (t : Fin cfg1.N) :
    (dat1 (F := Ideal) V c).flushed 2 t
      = ((cfg1.win 2).blk t).view.read (Elt Ideal) (G (V c main_v44) (V c main_v45)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  show k1_pay1 (iblk1 V c 0 t) (iblk1 V c 1 t) (ix2 p q)
    = G (V c main_v44) (V c main_v45) (((cfg1.win 2).blk t).view.emb (ix2 p q))
  refine Eq.trans ?_ (congrArg (G (V c main_v44) (V c main_v45)) (emb_out t p q)).symm
  rw [payload_apply, read_entries, read_row, G_apply]

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v46).slice (win1_2.rect t)).set ↔ _
  rw [View.set_slice_whole, Rect.mem_set_unit]
  exact Iff.rfl

/-- Every entry of the array is in some point's block: row `r` lies in the block of point `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have ht : (i 0).val / 5000 < grid1.N := by rw [hN]; omega
  obtain ⟨e0, e1, e2, e3, e4, e5⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]
    omega

/-- The result array after the region: `G` of the two arrays the region reads. -/
theorem final_G (c : Dev nD) :
    (dat1 (F := Ideal) V c).arrAt 2 cfg1.N = G (V c main_v44) (V c main_v45) :=
  (dat1 (F := Ideal) V c).arrAt_eq_of_cover 2 (G (V c main_v44) (V c main_v45)) (fun t _ => flushed_eq V c t) cover

/-- When the second array is the bias vector laid out as a row, the result array is the specification's bias and
    maximum of the first array and the bias vector. -/
theorem final (c : Dev nD) (b : (⟨S128, .f32⟩ : BufTy).Contents (Elt Ideal)) (h : S128.ShapeCasts S1x128)
    (hb : V c main_v45 = shapeCast S1x128 b h) :
    (dat1 (F := Ideal) V c).arrAt 2 cfg1.N = Cert.GraphConv.biasMax128 (F := Ideal) (V c main_v44) b := by
  rw [final_G, hb]
  refine funext fun (i : S50000x128.Idx) => ?_
  obtain ⟨r, q, rfl⟩ : ∃ (r : Fin 50000) (q : Fin 128), i = ix2 r q := ⟨i 0, i 1, eq_ix2 i⟩
  rw [spec_apply]
  exact G_row_apply _ b h r q

end Cert.KernelIdeal.BiasRegion1

end
-- ==== Proof.BiasRegion3.lean ====
/-
  The second bias-and-maximum region, from blocks to the array.

  The region walks ten blocks of 5000 rows.  At each block it adds to every row of the block the one row `[1, 128]`
  it is given and takes the maximum with zero; the result's block goes where the entries' block came from.  So entry
  `(5000 t + p, q)` of the result is `max (a (5000 t + p, q) + row (0, q)) 0`, and since the ten blocks cover the
  50000 rows the whole result array is that function of the two arrays.  When the row is a vector of 128 entries laid
  out as a row, entry `(0, q)` of it is entry `q` of the vector, and the specification's two broadcasts of the vector read
  the same entry: the result is the specification's bias and maximum.
-/
import proofs.«118916_j13520557048097_1_alg».proof.Proof.Gen.KernelIdeal.Frame
import proofs.«118916_j13520557048097_1_alg».proof.Proof.Spec
import proofs.«118916_j13520557048097_1_alg».proof.Proof.LibRowVector
import proofs.«118916_j13520557048097_1_alg».proof.Proof.LibBroadcasts
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRegion3

open Cert.KernelIdeal Cert.KernelIdeal.Gen Cert.KernelIdeal.Facts₀ Cert.KernelIdeal.Facts

variable [Cert.ReferenceIdeal.Facts]
variable (V : (c : Dev nD) → (b : Ref sig .tc) → Buf (Elt Ideal) ((c : Thread nD τ).loc b))

/-- The zeros of a pair of offsets, however spelt. -/
theorem hz : (![0, 0] : Fin 2 → Nat) = fun _ => 0 := funext fun a => by fin_cases a <;> rfl

/-- The array the region leaves: entry `(r, q)` is the maximum of `a (r, q) + row (0, q)` and zero. -/
def G (a : S50000x128.Idx → Elt Ideal .f32) (row : S1x128.Idx → Elt Ideal .f32) : S50000x128.Idx → Elt Ideal .f32 :=
  fun i => max (a i + row (ix2 0 (i 1))) (Ideal.ofBits .f32 0x00000000#32)

/-- `G` at an entry given by its row and column. -/
theorem G_apply (a : S50000x128.Idx → Elt Ideal .f32) (row : S1x128.Idx → Elt Ideal .f32) (r : Fin 50000) (q : Fin 128) :
    G a row (ix2 r q) = max (a (ix2 r q) + row (ix2 0 q)) (Ideal.ofBits .f32 0x00000000#32) := rfl

/-- The body's arithmetic at an entry of a block: the block's entry plus the row's entry of the same column,
    then the maximum with zero. -/
theorem payload_apply (x0 : Vec Ideal S5000x128 .f32) (x1 : Vec Ideal S1x128 .f32) (p : Fin 5000) (q : Fin 128) :
    k3_pay1 x0 x1 (ix2 p q) = max (x0 (ix2 p q) + x1 (ix2 0 q)) (Ideal.ofBits .f32 0x00000000#32) := by
  unfold k3_pay1
  show max (shapeCast S5000x128 x0 _ (ix2 p q) + broadcastTo S5000x128 (shapeCast S1x128 x1 _) _ (ix2 p q))
      (Ideal.ofBits .f32 0x00000000#32) = _
  rw [shapeCast_self, shapeCast_self]
  rw [broadcastTo_apply x1 _ (ix2 p q) (ix2 0 q) (fun a => by
    match a with
    | ⟨0, _⟩ => show (0 : ℕ) = if (1 : ℕ) = 1 then 0 else p.val; rw [if_pos rfl]
    | ⟨1, _⟩ => show q.val = if (128 : ℕ) = 1 then 0 else q.val; rw [if_neg (by decide)])]

/-- The specification at an entry: the entry plus the bias at the entry's column, then the maximum with zero. -/
theorem spec_apply (a : (⟨Cert.ReferenceIdeal.S50000x128, .f32⟩ : BufTy).Contents (Elt Ideal))
    (b : (⟨Cert.ReferenceIdeal.S128, .f32⟩ : BufTy).Contents (Elt Ideal)) (r : Fin 50000) (q : Fin 128) :
    Cert.GraphConv.biasMax128 (F := Ideal) a b (ix2 r q) = max (a (ix2 r q) + b (ix1 q)) (Ideal.ofBits .f32 0x00000000#32) := by
  unfold Cert.GraphConv.biasMax128
  rw [maximumf_apply, addf_apply, Cert.Broadcasts.downRows_apply, Cert.Broadcasts.splat_apply, constant_apply]

/-- With the bias vector laid out as a row, `G` at an entry reads the vector at the entry's column. -/
theorem G_row_apply (a : S50000x128.Idx → Elt Ideal .f32) (b : S128.Idx → Elt Ideal .f32) (h : S128.ShapeCasts S1x128)
    (r : Fin 50000) (q : Fin 128) :
    G a (shapeCast S1x128 b h) (ix2 r q) = max (a (ix2 r q) + b (ix1 q)) (Ideal.ofBits .f32 0x00000000#32) := by
  rw [G_apply, Cert.RowVector.reshape_apply]
  have hq : (fun a : Fin 1 => (ix2 (0 : Fin 1) q : (⟨2, ![1, 128]⟩ : Shape).Idx) a.succ) = ix1 q :=
    funext fun a => by match a with | ⟨0, _⟩ => rfl
  rw [hq]

/-- The index maps over the grid: the block of the entries and of the result at point `t` is block `(t, 0)`, the
    bias row's block is always block `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of block `t` is a row of the array. -/
theorem row_lt (t : Fin cfg3.N) (p : Fin 5000) : 5000 * t.val + p.val < 50000 := by
  have h : t.val < grid3.N := t.isLt
  rw [N_3] at h
  omega

/-- Where an entry of the result's block at point `t` sits in the array: row `5000 t + p`, the same column. -/
theorem emb_out (t : Fin cfg3.N) (p : Fin 5000) (q : Fin 128) :
    ((cfg3.win 2).blk t).view.emb (ix2 p q) = (ix2 ⟨5000 * t.val + p.val, row_lt t p⟩ q : S50000x128.Idx) := by
  obtain ⟨e0, e1, e2, e3, e4, e5⟩ := idx_facts t
  funext a; apply Fin.ext
  match a with
  | ⟨0, _⟩ => show win3_2.index t (0 : Fin 2) * 5000 + 1 * p.val = 5000 * t.val + p.val; omega
  | ⟨1, _⟩ => show win3_2.index t (1 : Fin 2) * 128 + 1 * q.val = q.val; omega

/-- The block of the first array at point `t`, at an entry: the array at row `5000 t + p`. -/
theorem read_entries (c : Dev nD) (t : Fin cfg3.N) (p : Fin 5000) (q : Fin 128) :
    iblk3 V c 0 t (ix2 p q) = V c main_v60 (ix2 ⟨5000 * t.val + p.val, row_lt t p⟩ q) := by
  obtain ⟨e0, e1, e2, e3, e4, e5⟩ := idx_facts t
  show V c main_v60 (((cfg3.win 0).blk t).view.emb (ix2 p q)) = _
  refine congrArg _ (funext fun a => Fin.ext ?_)
  match a with
  | ⟨0, _⟩ => show win3_0.index t (0 : Fin 2) * 5000 + 1 * p.val = 5000 * t.val + p.val; omega
  | ⟨1, _⟩ => show win3_0.index t (1 : Fin 2) * 128 + 1 * q.val = q.val; omega

/-- The block of the row at any point is the whole row. -/
theorem read_row (c : Dev nD) (t : Fin cfg3.N) (q : Fin 128) :
    iblk3 V c 1 t (ix2 0 q) = V c main_v61 (ix2 0 q) := by
  obtain ⟨e0, e1, e2, e3, e4, e5⟩ := idx_facts t
  show V c main_v61 (((cfg3.win 1).blk t).view.emb (ix2 0 q)) = _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- What point `t` writes back is block `t` of `G` of the two arrays as the region finds them. -/
theorem flushed_eq (c : Dev nD) (t : Fin cfg3.N) :
    (dat3 (F := Ideal) V c).flushed 2 t
      = ((cfg3.win 2).blk t).view.read (Elt Ideal) (G (V c main_v60) (V c main_v61)) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  show k3_pay1 (iblk3 V c 0 t) (iblk3 V c 1 t) (ix2 p q)
    = G (V c main_v60) (V c main_v61) (((cfg3.win 2).blk t).view.emb (ix2 p q))
  refine Eq.trans ?_ (congrArg (G (V c main_v60) (V c main_v61)) (emb_out t p q)).symm
  rw [payload_apply, read_entries, read_row, G_apply]

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v62).slice (win3_2.rect t)).set ↔ _
  rw [View.set_slice_whole, Rect.mem_set_unit]
  exact Iff.rfl

/-- Every entry of the array is in some point's block: row `r` lies in the block of point `r / 5000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 10 := N_3
  have ht : (i 0).val / 5000 < grid3.N := by rw [hN]; omega
  obtain ⟨e0, e1, e2, e3, e4, e5⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e5]
    omega

/-- The result array after the region: `G` of the two arrays the region reads. -/
theorem final_G (c : Dev nD) :
    (dat3 (F := Ideal) V c).arrAt 2 cfg3.N = G (V c main_v60) (V c main_v61) :=
  (dat3 (F := Ideal) V c).arrAt_eq_of_cover 2 (G (V c main_v60) (V c main_v61)) (fun t _ => flushed_eq V c t) cover

/-- When the second array is the bias vector laid out as a row, the result array is the specification's bias and
    maximum of the first array and the bias vector. -/
theorem final (c : Dev nD) (b : (⟨S128, .f32⟩ : BufTy).Contents (Elt Ideal)) (h : S128.ShapeCasts S1x128)
    (hb : V c main_v61 = shapeCast S1x128 b h) :
    (dat3 (F := Ideal) V c).arrAt 2 cfg3.N = Cert.GraphConv.biasMax128 (F := Ideal) (V c main_v60) b := by
  rw [final_G, hb]
  refine funext fun (i : S50000x128.Idx) => ?_
  obtain ⟨r, q, rfl⟩ : ∃ (r : Fin 50000) (q : Fin 128), i = ix2 r q := ⟨i 0, i 1, eq_ix2 i⟩
  rw [spec_apply]
  exact G_row_apply _ b h r q

end Cert.KernelIdeal.BiasRegion3

end
-- ==== Proof.BiasRegion5.lean ====
/-
  The third bias-and-maximum region, from blocks to the array.

  The region walks ten blocks of 5000 rows.  At each block it adds to every row of the block the one row `[1, 64]`
  it is given and takes the maximum with zero; the result's block goes where the entries' block came from.  So entry
  `(5000 t + p, q)` of the result is `max (a (5000 t + p, q) + row (0, q)) 0`, and since the ten blocks cover the
  50000 rows the whole result array is that function of the two arrays.  When the row is a vector of 64 entries laid
  out as a row, entry `(0, q)` of it is entry `q` of the vector, and the specification's two broadcasts of the vector read
  the same entry: the result is the specification's bias and maximum.
-/
import proofs.«118916_j13520557048097_1_alg».proof.Proof.Gen.KernelIdeal.Frame
import proofs.«118916_j13520557048097_1_alg».proof.Proof.Spec
import proofs.«118916_j13520557048097_1_alg».proof.Proof.LibRowVector
import proofs.«118916_j13520557048097_1_alg».proof.Proof.LibBroadcasts
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.BiasRegion5

open Cert.KernelIdeal Cert.KernelIdeal.Gen Cert.KernelIdeal.Facts₀ Cert.KernelIdeal.Facts

variable [Cert.ReferenceIdeal.Facts]
variable (V : (c : Dev nD) → (b : Ref sig .tc) → Buf (Elt Ideal) ((c : Thread nD τ).loc b))

/-- The zeros of a pair of offsets, however spelt. -/
theorem hz : (![0, 0] : Fin 2 → Nat) = fun _ => 0 := funext fun a => by fin_cases a <;> rfl

/-- The array the region leaves: entry `(r, q)` is the maximum of `a (r, q) + row (0, q)` and zero. -/
def G (a : S50000x64.Idx → Elt Ideal .f32) (row : S1x64.Idx → Elt Ideal .f32) : S50000x64.Idx → Elt Ideal .f32 :=
  fun i => max (a i + row (ix2 0 (i 1))) (Ideal.ofBits .f32 0x00000000#32)

/-- `G` at an entry given by its row and column. -/
theorem G_apply (a : S50000x64.Idx → Elt Ideal .f32) (row : S1x64.Idx → Elt Ideal .f32) (r : Fin 50000) (q : Fin 64) :
    G a row (ix2 r q) = max (a (ix2 r q) + row (ix2 0 q)) (Ideal.ofBits .f32 0x00000000#32) := rfl

/-- The body's arithmetic at an entry of a block: the block's entry plus the row's entry of the same column,
    then the maximum with zero. -/
theorem payload_apply (x0 : Vec Ideal S5000x64 .f32) (x1 : Vec Ideal S1x64 .f32) (p : Fin 5000) (q : Fin 64) :
    k5_pay1 x0 x1 (ix2 p q) = max (x0 (ix2 p q) + x1 (ix2 0 q)) (Ideal.ofBits .f32 0x00000000#32) := by
  unfold k5_pay1
  show max (shapeCast S5000x64 x0 _ (ix2 p q) + broadcastTo S5000x64 (shapeCast S1x64 x1 _) _ (ix2 p q))
      (Ideal.ofBits .f32 0x00000000#32) = _
  rw [shapeCast_self, shapeCast_self]
  rw [broadcastTo_apply x1 _ (ix2 p q) (ix2 0 q) (fun a => by
    match a with
    | ⟨0, _⟩ => show (0 : ℕ) = if (1 : ℕ) = 1 then 0 else p.val; rw [if_pos rfl]
    | ⟨1, _⟩ => show q.val = if (64 : ℕ) = 1 then 0 else q.val; rw [if_neg (by decide)])]

/-- The specification at an entry: the entry plus the bias at the entry's column, then the maximum with zero. -/
theorem spec_apply (a : (⟨Cert.ReferenceIdeal.S50000x64, .f32⟩ : BufTy).Contents (Elt Ideal))
    (b : (⟨Cert.ReferenceIdeal.S64, .f32⟩ : BufTy).Contents (Elt Ideal)) (r : Fin 50000) (q : Fin 64) :
    Cert.GraphConv.biasMax64 (F := Ideal) a b (ix2 r q) = max (a (ix2 r q) + b (ix1 q)) (Ideal.ofBits .f32 0x00000000#32) := by
  unfold Cert.GraphConv.biasMax64
  rw [maximumf_apply, addf_apply, Cert.Broadcasts.downRows_apply, Cert.Broadcasts.splat_apply, constant_apply]

/-- With the bias vector laid out as a row, `G` at an entry reads the vector at the entry's column. -/
theorem G_row_apply (a : S50000x64.Idx → Elt Ideal .f32) (b : S64.Idx → Elt Ideal .f32) (h : S64.ShapeCasts S1x64)
    (r : Fin 50000) (q : Fin 64) :
    G a (shapeCast S1x64 b h) (ix2 r q) = max (a (ix2 r q) + b (ix1 q)) (Ideal.ofBits .f32 0x00000000#32) := by
  rw [G_apply, Cert.RowVector.reshape_apply]
  have hq : (fun a : Fin 1 => (ix2 (0 : Fin 1) q : (⟨2, ![1, 64]⟩ : Shape).Idx) a.succ) = ix1 q :=
    funext fun a => by match a with | ⟨0, _⟩ => rfl
  rw [hq]

/-- The index maps over the grid: the block of the entries and of the result at point `t` is block `(t, 0)`, the
    bias row's block is always block `(0, 0)`. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row `p` of block `t` is a row of the array. -/
theorem row_lt (t : Fin cfg5.N) (p : Fin 5000) : 5000 * t.val + p.val < 50000 := by
  have h : t.val < grid5.N := t.isLt
  rw [N_5] at h
  omega

/-- Where an entry of the result's block at point `t` sits in the array: row `5000 t + p`, the same column. -/
theorem emb_out (t : Fin cfg5.N) (p : Fin 5000) (q : Fin 64) :
    ((cfg5.win 2).blk t).view.emb (ix2 p q) = (ix2 ⟨5000 * t.val + p.val, row_lt t p⟩ q : S50000x64.Idx) := by
  obtain ⟨e0, e1, e2, e3, e4, e5⟩ := idx_facts t
  funext a; apply Fin.ext
  match a with
  | ⟨0, _⟩ => show win5_2.index t (0 : Fin 2) * 5000 + 1 * p.val = 5000 * t.val + p.val; omega
  | ⟨1, _⟩ => show win5_2.index t (1 : Fin 2) * 64 + 1 * q.val = q.val; omega

/-- The block of the first array at point `t`, at an entry: the array at row `5000 t + p`. -/
theorem read_entries (c : Dev nD) (t : Fin cfg5.N) (p : Fin 5000) (q : Fin 64) :
    iblk5 V c 0 t (ix2 p q) = V c main_v76 (ix2 ⟨5000 * t.val + p.val, row_lt t p⟩ q) := by
  obtain ⟨e0, e1, e2, e3, e4, e5⟩ := idx_facts t
  show V c main_v76 (((cfg5.win 0).blk t).view.emb (ix2 p q)) = _
  refine congrArg _ (funext fun a => Fin.ext ?_)
  match a with
  | ⟨0, _⟩ => show win5_0.index t (0 : Fin 2) * 5000 + 1 * p.val = 5000 * t.val + p.val; omega
  | ⟨1, _⟩ => show win5_0.index t (1 : Fin 2) * 64 + 1 * q.val = q.val; omega

/-- The block of the row at any point is the whole row. -/
theorem read_row (c : Dev nD) (t : Fin cfg5.N) (q : Fin 64) :
    iblk5 V c 1 t (ix2 0 q) = V c main_v77 (ix2 0 q) := by
  obtain ⟨e0, e1, e2, e3, e4, e5⟩ := idx_facts t
  show V c main_v77 (((cfg5.win 1).blk t).view.emb (ix2 0 q)) = _
  refine congrArg _ (funext fun a => Fin.ext ?_)
  match a with
  | ⟨0, _⟩ => show win5_1.index t (0 : Fin 2) * 1 + 1 * 0 = 0; omega
  | ⟨1, _⟩ => show win5_1.index t (1 : Fin 2) * 64 + 1 * q.val = q.val; omega

/-- What point `t` writes back is block `t` of `G` of the two arrays as the region finds them. -/
theorem flushed_eq (c : Dev nD) (t : Fin cfg5.N) :
    (dat5 (F := Ideal) V c).flushed 2 t
      = ((cfg5.win 2).blk t).view.read (Elt Ideal) (G (V c main_v76) (V c main_v77)) := by
  show (cfg5.win 2).cut (grid5.coords t) ((dat5 (F := Ideal) V c).after 2 t) = _
  rw [after5_2]
  unfold out5_2
  rw [View.canon_unit_zero hz]
  simp only [View.ld_unit_zero (S := S5000x64) hz, View.ld_unit_zero (S := S1x64) hz]
  refine funext fun (j : S5000x64.Idx) => ?_
  obtain ⟨p, q, rfl⟩ : ∃ (p : Fin 5000) (q : Fin 64), j = ix2 p q := ⟨j 0, j 1, eq_ix2 j⟩
  show k5_pay1 (iblk5 V c 0 t) (iblk5 V c 1 t) (ix2 p q)
    = G (V c main_v76) (V c main_v77) (((cfg5.win 2).blk t).view.emb (ix2 p q))
  refine Eq.trans ?_ (congrArg (G (V c main_v76) (V c main_v77)) (emb_out t p q)).symm
  rw [payload_apply, read_entries, read_row, G_apply]

/-- An index of the array is in point `t`'s block iff each coordinate is in the block's range on its axis. -/
theorem mem_blk (t : Fin cfg5.N) (i : S50000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v78).slice (win5_2.rect t)).set ↔ _
  rw [View.set_slice_whole, Rect.mem_set_unit]
  exact Iff.rfl

/-- Every entry of the array is in some point's block: row `r` lies in the block of point `r / 5000`. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : grid5.N = 10 := N_5
  have ht : (i 0).val / 5000 < grid5.N := by rw [hN]; omega
  obtain ⟨e0, e1, e2, e3, e4, e5⟩ := idx_facts ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, ht⟩ (1 : Fin 2) * 64 ≤ (i 1).val
      ∧ (i 1).val < win5_2.index ⟨(i 0).val / 5000, ht⟩ (1 : Fin 2) * 64 + 64
    rw [e5]
    omega

/-- The result array after the region: `G` of the two arrays the region reads. -/
theorem final_G (c : Dev nD) :
    (dat5 (F := Ideal) V c).arrAt 2 cfg5.N = G (V c main_v76) (V c main_v77) :=
  (dat5 (F := Ideal) V c).arrAt_eq_of_cover 2 (G (V c main_v76) (V c main_v77)) (fun t _ => flushed_eq V c t) cover

/-- When the second array is the bias vector laid out as a row, the result array is the specification's bias and
    maximum of the first array and the bias vector. -/
theorem final (c : Dev nD) (b : (⟨S64, .f32⟩ : BufTy).Contents (Elt Ideal)) (h : S64.ShapeCasts S1x64)
    (hb : V c main_v77 = shapeCast S1x64 b h) :
    (dat5 (F := Ideal) V c).arrAt 2 cfg5.N = Cert.GraphConv.biasMax64 (F := Ideal) (V c main_v76) b := by
  rw [final_G, hb]
  refine funext fun (i : S50000x64.Idx) => ?_
  obtain ⟨r, q, rfl⟩ : ∃ (r : Fin 50000) (q : Fin 64), i = ix2 r q := ⟨i 0, i 1, eq_ix2 i⟩
  rw [spec_apply]
  exact G_row_apply _ b h r q

end Cert.KernelIdeal.BiasRegion5

end
-- ==== Proof.Chain.lean ====
/-
  The kernel program's result array as a function of its arguments: the fold of contents through the six regions
  and the host stretches between them, read at the buffers that matter.

  Three things are carried unchanged from the first region's entry to their last reader — the two index vectors
  (edge sources and targets), the edge weights, and each argument array not yet read: a host stretch keeps what it
  does not write, and a region keeps every buffer that is not one of its three arrays.  The features advance one
  step per boundary: a matrix-product region leaves the product of its two arrays, the next host stretch leaves the
  weighted sums over incoming edges and the bias vector laid out as a row, and a bias region leaves "add the bias
  row, take the maximum with zero" of that.  After the sixth region the result array is the specification's
  three-layer `encoder` of the eight arguments.
-/
import proofs.«118916_j13520557048097_1_alg».proof.Proof.Gen.KernelIdeal.Frame
import proofs.«118916_j13520557048097_1_alg».proof.Proof.Gen.ReferenceIdeal
import proofs.«118916_j13520557048097_1_alg».proof.Proof.Spec
import proofs.«118916_j13520557048097_1_alg».proof.Proof.Stretches
import Idealize.ShloMosaic.PureOps.Ideal
import proofs.«118916_j13520557048097_1_alg».proof.Proof.ProductRegion0
import proofs.«118916_j13520557048097_1_alg».proof.Proof.ProductRegion2
import proofs.«118916_j13520557048097_1_alg».proof.Proof.ProductRegion4
import proofs.«118916_j13520557048097_1_alg».proof.Proof.BiasRegion1
import proofs.«118916_j13520557048097_1_alg».proof.Proof.BiasRegion3
import proofs.«118916_j13520557048097_1_alg».proof.Proof.BiasRegion5

set_option maxRecDepth 16384

noncomputable section

namespace Cert.KernelIdeal.Chain

open Cert.KernelIdeal Cert.KernelIdeal.Gen Cert.KernelIdeal.Facts₀ Cert.KernelIdeal.Facts Cert.GraphConv Cert.KernelIdeal.Stretches
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What is carried from boundary to boundary: the index vectors, the edge weights, the arguments still to be read -/

theorem at3_v3 : W3 m ρ c (Proc.devRef .tc main_v3) = (sources (F := Ideal) (m ((c : Thread nD τ).loc main_arg1))) := prelude_sources (W0 m ρ c)
theorem at3_v6 : W3 m ρ c (Proc.devRef .tc main_v6) = (targets (F := Ideal) (m ((c : Thread nD τ).loc main_arg1))) := prelude_targets (W0 m ρ c)
theorem at3_v30 : W3 m ρ c (Proc.devRef .tc main_v30) = (edgeWeight (F := Ideal) (sources (F := Ideal) (m ((c : Thread nD τ).loc main_arg1))) (targets (F := Ideal) (m ((c : Thread nD τ).loc main_arg1)))) := prelude_weight (W0 m ρ c)
theorem at3_arg0 : W3 m ρ c (Proc.devRef .tc main_arg0) = (m ((c : Thread nD τ).loc main_arg0)) := prelude_keeps_arg0 (W0 m ρ c)
theorem at3_arg2 : W3 m ρ c (Proc.devRef .tc main_arg2) = (m ((c : Thread nD τ).loc main_arg2)) := prelude_keeps_arg2 (W0 m ρ c)
theorem at3_arg3 : W3 m ρ c (Proc.devRef .tc main_arg3) = (m ((c : Thread nD τ).loc main_arg3)) := prelude_keeps_arg3 (W0 m ρ c)
theorem at3_arg4 : W3 m ρ c (Proc.devRef .tc main_arg4) = (m ((c : Thread nD τ).loc main_arg4)) := prelude_keeps_arg4 (W0 m ρ c)
theorem at3_arg5 : W3 m ρ c (Proc.devRef .tc main_arg5) = (m ((c : Thread nD τ).loc main_arg5)) := prelude_keeps_arg5 (W0 m ρ c)
theorem at3_arg6 : W3 m ρ c (Proc.devRef .tc main_arg6) = (m ((c : Thread nD τ).loc main_arg6)) := prelude_keeps_arg6 (W0 m ρ c)
theorem at3_arg7 : W3 m ρ c (Proc.devRef .tc main_arg7) = (m ((c : Thread nD τ).loc main_arg7)) := prelude_keeps_arg7 (W0 m ρ c)
theorem at4_v3 : W4 m ρ c (Proc.devRef .tc main_v3) = (sources (F := Ideal) (m ((c : Thread nD τ).loc main_arg1))) := (W4_of_ne m ρ c main_v3 (by decide)).trans (at3_v3 m ρ c)
theorem at4_v6 : W4 m ρ c (Proc.devRef .tc main_v6) = (targets (F := Ideal) (m ((c : Thread nD τ).loc main_arg1))) := (W4_of_ne m ρ c main_v6 (by decide)).trans (at3_v6 m ρ c)
theorem at4_v30 : W4 m ρ c (Proc.devRef .tc main_v30) = (edgeWeight (F := Ideal) (sources (F := Ideal) (m ((c : Thread nD τ).loc main_arg1))) (targets (F := Ideal) (m ((c : Thread nD τ).loc main_arg1)))) := (W4_of_ne m ρ c main_v30 (by decide)).trans (at3_v30 m ρ c)
theorem at4_arg3 : W4 m ρ c (Proc.devRef .tc main_arg3) = (m ((c : Thread nD τ).loc main_arg3)) := (W4_of_ne m ρ c main_arg3 (by decide)).trans (at3_arg3 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg7 : W4 m ρ c (Proc.devRef .tc main_arg7) = (m ((c : Thread nD τ).loc main_arg7)) := (W4_of_ne m ρ c main_arg7 (by decide)).trans (at3_arg7 m ρ c)
theorem at5_v3 : W5 m ρ c (Proc.devRef .tc main_v3) = (sources (F := Ideal) (m ((c : Thread nD τ).loc main_arg1))) := (layer1_keeps_v3 (W4 m ρ c)).trans (at4_v3 m ρ c)
theorem at5_v6 : W5 m ρ c (Proc.devRef .tc main_v6) = (targets (F := Ideal) (m ((c : Thread nD τ).loc main_arg1))) := (layer1_keeps_v6 (W4 m ρ c)).trans (at4_v6 m ρ c)
theorem at5_v30 : W5 m ρ c (Proc.devRef .tc main_v30) = (edgeWeight (F := Ideal) (sources (F := Ideal) (m ((c : Thread nD τ).loc main_arg1))) (targets (F := Ideal) (m ((c : Thread nD τ).loc main_arg1)))) := (layer1_keeps_v30 (W4 m ρ c)).trans (at4_v30 m ρ c)
theorem at5_arg4 : W5 m ρ c (Proc.devRef .tc main_arg4) = (m ((c : Thread nD τ).loc main_arg4)) := (layer1_keeps_arg4 (W4 m ρ c)).trans (at4_arg4 m ρ c)
theorem at5_arg5 : W5 m ρ c (Proc.devRef .tc main_arg5) = (m ((c : Thread nD τ).loc main_arg5)) := (layer1_keeps_arg5 (W4 m ρ c)).trans (at4_arg5 m ρ c)
theorem at5_arg6 : W5 m ρ c (Proc.devRef .tc main_arg6) = (m ((c : Thread nD τ).loc main_arg6)) := (layer1_keeps_arg6 (W4 m ρ c)).trans (at4_arg6 m ρ c)
theorem at5_arg7 : W5 m ρ c (Proc.devRef .tc main_arg7) = (m ((c : Thread nD τ).loc main_arg7)) := (layer1_keeps_arg7 (W4 m ρ c)).trans (at4_arg7 m ρ c)
theorem at6_v3 : W6 m ρ c (Proc.devRef .tc main_v3) = (sources (F := Ideal) (m ((c : Thread nD τ).loc main_arg1))) := (W6_of_ne m ρ c main_v3 (by decide)).trans (at5_v3 m ρ c)
theorem at6_v6 : W6 m ρ c (Proc.devRef .tc main_v6) = (targets (F := Ideal) (m ((c : Thread nD τ).loc main_arg1))) := (W6_of_ne m ρ c main_v6 (by decide)).trans (at5_v6 m ρ c)
theorem at6_v30 : W6 m ρ c (Proc.devRef .tc main_v30) = (edgeWeight (F := Ideal) (sources (F := Ideal) (m ((c : Thread nD τ).loc main_arg1))) (targets (F := Ideal) (m ((c : Thread nD τ).loc main_arg1)))) := (W6_of_ne m ρ c main_v30 (by decide)).trans (at5_v30 m ρ c)
theorem at6_arg4 : W6 m ρ c (Proc.devRef .tc main_arg4) = (m ((c : Thread nD τ).loc main_arg4)) := (W6_of_ne m ρ c main_arg4 (by decide)).trans (at5_arg4 m ρ c)
theorem at6_arg5 : W6 m ρ c (Proc.devRef .tc main_arg5) = (m ((c : Thread nD τ).loc main_arg5)) := (W6_of_ne m ρ c main_arg5 (by decide)).trans (at5_arg5 m ρ c)
theorem at6_arg6 : W6 m ρ c (Proc.devRef .tc main_arg6) = (m ((c : Thread nD τ).loc main_arg6)) := (W6_of_ne m ρ c main_arg6 (by decide)).trans (at5_arg6 m ρ c)
theorem at6_arg7 : W6 m ρ c (Proc.devRef .tc main_arg7) = (m ((c : Thread nD τ).loc main_arg7)) := (W6_of_ne m ρ c main_arg7 (by decide)).trans (at5_arg7 m ρ c)
theorem at7_v3 : W7 m ρ c (Proc.devRef .tc main_v3) = (sources (F := Ideal) (m ((c : Thread nD τ).loc main_arg1))) := (W7_of_ne m ρ c main_v3 (by decide)).trans (at6_v3 m ρ c)
theorem at7_v6 : W7 m ρ c (Proc.devRef .tc main_v6) = (targets (F := Ideal) (m ((c : Thread nD τ).loc main_arg1))) := (W7_of_ne m ρ c main_v6 (by decide)).trans (at6_v6 m ρ c)
theorem at7_v30 : W7 m ρ c (Proc.devRef .tc main_v30) = (edgeWeight (F := Ideal) (sources (F := Ideal) (m ((c : Thread nD τ).loc main_arg1))) (targets (F := Ideal) (m ((c : Thread nD τ).loc main_arg1)))) := (W7_of_ne m ρ c main_v30 (by decide)).trans (at6_v30 m ρ c)
theorem at7_arg5 : W7 m ρ c (Proc.devRef .tc main_arg5) = (m ((c : Thread nD τ).loc main_arg5)) := (W7_of_ne m ρ c main_arg5 (by decide)).trans (at6_arg5 m ρ c)
theorem at7_arg6 : W7 m ρ c (Proc.devRef .tc main_arg6) = (m ((c : Thread nD τ).loc main_arg6)) := (W7_of_ne m ρ c main_arg6 (by decide)).trans (at6_arg6 m ρ c)
theorem at7_arg7 : W7 m ρ c (Proc.devRef .tc main_arg7) = (m ((c : Thread nD τ).loc main_arg7)) := (W7_of_ne m ρ c main_arg7 (by decide)).trans (at6_arg7 m ρ c)
theorem at8_v3 : W8 m ρ c (Proc.devRef .tc main_v3) = (sources (F := Ideal) (m ((c : Thread nD τ).loc main_arg1))) := (layer2_keeps_v3 (W7 m ρ c)).trans (at7_v3 m ρ c)
theorem at8_v6 : W8 m ρ c (Proc.devRef .tc main_v6) = (targets (F := Ideal) (m ((c : Thread nD τ).loc main_arg1))) := (layer2_keeps_v6 (W7 m ρ c)).trans (at7_v6 m ρ c)
theorem at8_v30 : W8 m ρ c (Proc.devRef .tc main_v30) = (edgeWeight (F := Ideal) (sources (F := Ideal) (m ((c : Thread nD τ).loc main_arg1))) (targets (F := Ideal) (m ((c : Thread nD τ).loc main_arg1)))) := (layer2_keeps_v30 (W7 m ρ c)).trans (at7_v30 m ρ c)
theorem at8_arg6 : W8 m ρ c (Proc.devRef .tc main_arg6) = (m ((c : Thread nD τ).loc main_arg6)) := (layer2_keeps_arg6 (W7 m ρ c)).trans (at7_arg6 m ρ c)
theorem at8_arg7 : W8 m ρ c (Proc.devRef .tc main_arg7) = (m ((c : Thread nD τ).loc main_arg7)) := (layer2_keeps_arg7 (W7 m ρ c)).trans (at7_arg7 m ρ c)
theorem at9_v3 : W9 m ρ c (Proc.devRef .tc main_v3) = (sources (F := Ideal) (m ((c : Thread nD τ).loc main_arg1))) := (W9_of_ne m ρ c main_v3 (by decide)).trans (at8_v3 m ρ c)
theorem at9_v6 : W9 m ρ c (Proc.devRef .tc main_v6) = (targets (F := Ideal) (m ((c : Thread nD τ).loc main_arg1))) := (W9_of_ne m ρ c main_v6 (by decide)).trans (at8_v6 m ρ c)
theorem at9_v30 : W9 m ρ c (Proc.devRef .tc main_v30) = (edgeWeight (F := Ideal) (sources (F := Ideal) (m ((c : Thread nD τ).loc main_arg1))) (targets (F := Ideal) (m ((c : Thread nD τ).loc main_arg1)))) := (W9_of_ne m ρ c main_v30 (by decide)).trans (at8_v30 m ρ c)
theorem at9_arg6 : W9 m ρ c (Proc.devRef .tc main_arg6) = (m ((c : Thread nD τ).loc main_arg6)) := (W9_of_ne m ρ c main_arg6 (by decide)).trans (at8_arg6 m ρ c)
theorem at9_arg7 : W9 m ρ c (Proc.devRef .tc main_arg7) = (m ((c : Thread nD τ).loc main_arg7)) := (W9_of_ne m ρ c main_arg7 (by decide)).trans (at8_arg7 m ρ c)
theorem at10_v3 : W10 m ρ c (Proc.devRef .tc main_v3) = (sources (F := Ideal) (m ((c : Thread nD τ).loc main_arg1))) := (W10_of_ne m ρ c main_v3 (by decide)).trans (at9_v3 m ρ c)
theorem at10_v6 : W10 m ρ c (Proc.devRef .tc main_v6) = (targets (F := Ideal) (m ((c : Thread nD τ).loc main_arg1))) := (W10_of_ne m ρ c main_v6 (by decide)).trans (at9_v6 m ρ c)
theorem at10_v30 : W10 m ρ c (Proc.devRef .tc main_v30) = (edgeWeight (F := Ideal) (sources (F := Ideal) (m ((c : Thread nD τ).loc main_arg1))) (targets (F := Ideal) (m ((c : Thread nD τ).loc main_arg1)))) := (W10_of_ne m ρ c main_v30 (by decide)).trans (at9_v30 m ρ c)
theorem at10_arg7 : W10 m ρ c (Proc.devRef .tc main_arg7) = (m ((c : Thread nD τ).loc main_arg7)) := (W10_of_ne m ρ c main_arg7 (by decide)).trans (at9_arg7 m ρ c)

/-! ## The features, boundary by boundary -/

/-- After the first region: the node features times the first weight matrix. -/
theorem feat4 : W4 m ρ c (Proc.devRef .tc main_v31) = (product1 (F := Ideal) (m ((c : Thread nD τ).loc main_arg0)) (m ((c : Thread nD τ).loc main_arg2))) :=
  (W4_arr m ρ c 2).trans ((Cert.KernelIdeal.ProductRegion0.final (V3 m ρ) c).trans
    (by rw [show V3 m ρ c main_arg0 = _ from at3_arg0 m ρ c, show V3 m ρ c main_arg2 = _ from at3_arg2 m ρ c]))

/-- The first layer's weighted sums. -/
theorem feat5 : W5 m ρ c (Proc.devRef .tc main_v44) = (propagate128 (F := Ideal) (product1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) :=
  (layer1_sum (W4 m ρ c)).trans (by rw [feat4 m ρ c, at4_v3 m ρ c, at4_v6 m ρ c, at4_v30 m ρ c])

/-- The first layer's bias as a row. -/
theorem bias5 : W5 m ρ c (Proc.devRef .tc main_v45) = shapeCast S1x128 (m ((c : Thread nD τ).loc main_arg3)) Facts₀.shapeCasts_S128_S1x128 :=
  (layer1_bias (W4 m ρ c)).trans (by rw [at4_arg3 m ρ c])

/-- After the second region: the first layer's output. -/
theorem feat6 : W6 m ρ c (Proc.devRef .tc main_v46) = (biasMax128 (F := Ideal) (propagate128 (F := Ideal) (product1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) (m ((c : Thread nD τ).loc main_arg3))) :=
  (W6_arr m ρ c 2).trans ((Cert.KernelIdeal.BiasRegion1.final (V5 m ρ) c (m ((c : Thread nD τ).loc main_arg3)) Facts₀.shapeCasts_S128_S1x128 (bias5 m ρ c)).trans
    (by rw [show V5 m ρ c main_v44 = _ from feat5 m ρ c]))

/-- After the third region: the first layer's output times the second weight matrix. -/
theorem feat7 : W7 m ρ c (Proc.devRef .tc main_v47) = (product2 (F := Ideal) (biasMax128 (F := Ideal) (propagate128 (F := Ideal) (product1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) (m ((c : Thread nD τ).loc main_arg3))) (m ((c : Thread nD τ).loc main_arg4))) :=
  (W7_arr m ρ c 2).trans ((Cert.KernelIdeal.ProductRegion2.final (V6 m ρ) c).trans
    (by rw [show V6 m ρ c main_v46 = _ from feat6 m ρ c, show V6 m ρ c main_arg4 = _ from at6_arg4 m ρ c]))

/-- The second layer's weighted sums. -/
theorem feat8 : W8 m ρ c (Proc.devRef .tc main_v60) = (propagate128 (F := Ideal) (product2 (F := Ideal) (biasMax128 (F := Ideal) (propagate128 (F := Ideal) (product1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) (m ((c : Thread nD τ).loc main_arg3))) (m ((c : Thread nD τ).loc main_arg4))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) :=
  (layer2_sum (W7 m ρ c)).trans (by rw [feat7 m ρ c, at7_v3 m ρ c, at7_v6 m ρ c, at7_v30 m ρ c])

/-- The second layer's bias as a row. -/
theorem bias8 : W8 m ρ c (Proc.devRef .tc main_v61) = shapeCast S1x128 (m ((c : Thread nD τ).loc main_arg5)) Facts₀.shapeCasts_S128_S1x128 :=
  (layer2_bias (W7 m ρ c)).trans (by rw [at7_arg5 m ρ c])

/-- After the fourth region: the second layer's output. -/
theorem feat9 : W9 m ρ c (Proc.devRef .tc main_v62) = (biasMax128 (F := Ideal) (propagate128 (F := Ideal) (product2 (F := Ideal) (biasMax128 (F := Ideal) (propagate128 (F := Ideal) (product1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) (m ((c : Thread nD τ).loc main_arg3))) (m ((c : Thread nD τ).loc main_arg4))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) (m ((c : Thread nD τ).loc main_arg5))) :=
  (W9_arr m ρ c 2).trans ((Cert.KernelIdeal.BiasRegion3.final (V8 m ρ) c (m ((c : Thread nD τ).loc main_arg5)) Facts₀.shapeCasts_S128_S1x128 (bias8 m ρ c)).trans
    (by rw [show V8 m ρ c main_v60 = _ from feat8 m ρ c]))

/-- After the fifth region: the second layer's output times the third weight matrix. -/
theorem feat10 : W10 m ρ c (Proc.devRef .tc main_v63) = (product3 (F := Ideal) (biasMax128 (F := Ideal) (propagate128 (F := Ideal) (product2 (F := Ideal) (biasMax128 (F := Ideal) (propagate128 (F := Ideal) (product1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) (m ((c : Thread nD τ).loc main_arg3))) (m ((c : Thread nD τ).loc main_arg4))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) (m ((c : Thread nD τ).loc main_arg5))) (m ((c : Thread nD τ).loc main_arg6))) :=
  (W10_arr m ρ c 2).trans ((Cert.KernelIdeal.ProductRegion4.final (V9 m ρ) c).trans
    (by rw [show V9 m ρ c main_v62 = _ from feat9 m ρ c, show V9 m ρ c main_arg6 = _ from at9_arg6 m ρ c]))

/-- The third layer's weighted sums. -/
theorem feat11 : W11 m ρ c (Proc.devRef .tc main_v76) = (propagate64 (F := Ideal) (product3 (F := Ideal) (biasMax128 (F := Ideal) (propagate128 (F := Ideal) (product2 (F := Ideal) (biasMax128 (F := Ideal) (propagate128 (F := Ideal) (product1 (F := Ideal) (m ((c : Thread nD τ).loc main_arg0)) (m ((c : Thread nD τ).loc main_arg2))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) (m ((c : Thread nD τ).loc main_arg3))) (m ((c : Thread nD τ).loc main_arg4))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) (m ((c : Thread nD τ).loc main_arg5))) (m ((c : Thread nD τ).loc main_arg6))) (sources (F := Ideal) (m ((c : Thread nD τ).loc main_arg1))) (targets (F := Ideal) (m ((c : Thread nD τ).loc main_arg1))) (edgeWeight (F := Ideal) (sources (F := Ideal) (m ((c : Thread nD τ).loc main_arg1))) (targets (F := Ideal) (m ((c : Thread nD τ).loc main_arg1))))) :=
  (layer3_sum (W10 m ρ c)).trans (by rw [feat10 m ρ c, at10_v3 m ρ c, at10_v6 m ρ c, at10_v30 m ρ c])

/-- The third layer's bias as a row. -/
theorem bias11 : W11 m ρ c (Proc.devRef .tc main_v77) = shapeCast S1x64 (m ((c : Thread nD τ).loc main_arg7)) Facts₀.shapeCasts_S64_S1x64 :=
  (layer3_bias (W10 m ρ c)).trans (by rw [at10_arg7 m ρ c])

/-- After the last region the result array holds the three-layer graph convolution of the arguments. -/
theorem result_eq : W12 m ρ c (Proc.devRef .tc main_v78)
    = encoder (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((Cert.KernelIdeal.BiasRegion5.final (V11 m ρ) c (m ((c : Thread nD τ).loc main_arg7)) Facts₀.shapeCasts_S64_S1x64 (bias11 m ρ c)).trans
    (by rw [show V11 m ρ c main_v76 = _ from feat11 m ρ c]; rfl))

end Cert.KernelIdeal.Chain

end
-- ==== Proof.lean ====
/-
  A three-layer graph convolution over 50000 nodes and 800000 listed edges, each layer "features times weights,
  weighted sum over incoming edges, plus bias, maximum with zero", computed two ways.

  The kernel program does each layer's matrix product and each layer's bias-and-maximum step in a pipelined on-chip
  region over blocks of 5000 rows (six regions in all) and leaves the edge bookkeeping — the index vectors, the
  degree-based edge weights, the gathers along edges and the scatter-adds at the edge targets — to host operations
  between the regions.  The reference does everything with host operations.  Over the extended reals the two agree
  because each region computes, on whole arrays, exactly the host operation it stands for: the on-chip product of
  a block of rows with the weight matrix, accumulated from zero with the operands' narrowing to a shorter float
  format being the identity, is the rows' part of the host's matrix product, both being the same finite sum of
  products; and the blockwise "add the bias row, take the maximum with zero" is the host's broadcast, addition and
  maximum read at the block's rows.  Finite sums over the extended reals do not depend on the order of the summands,
  and nothing here distributes or cancels, so the inputs' finiteness is never used.  The edge bookkeeping is the
  same chain of operations in both programs and is carried as named functions that are never opened.

  The three frame claims are the generated frames (the reference's is its run with the result forgotten), the
  idealization rewrote no operation, and the value claim puts the two runs side by side: both end at the
  specification's `encoder` of the argument arrays.
-/
import proofs.«118916_j13520557048097_1_alg».proof.Defs
import proofs.«118916_j13520557048097_1_alg».proof.Proof.Gen.Kernel
import proofs.«118916_j13520557048097_1_alg».proof.Proof.Gen.Kernel.Skeleton
import proofs.«118916_j13520557048097_1_alg».proof.Proof.Gen.Kernel.Launch
import proofs.«118916_j13520557048097_1_alg».proof.Proof.Gen.Kernel.Points
import proofs.«118916_j13520557048097_1_alg».proof.Proof.Gen.Kernel.Frame
import proofs.«118916_j13520557048097_1_alg».proof.Proof.Gen.KernelIdeal
import proofs.«118916_j13520557048097_1_alg».proof.Proof.Gen.KernelIdeal.Skeleton
import proofs.«118916_j13520557048097_1_alg».proof.Proof.Gen.KernelIdeal.Launch
import proofs.«118916_j13520557048097_1_alg».proof.Proof.Gen.KernelIdeal.Points
import proofs.«118916_j13520557048097_1_alg».proof.Proof.Gen.KernelIdeal.Frame
import proofs.«118916_j13520557048097_1_alg».proof.Proof.Gen.ReferenceIdeal
import proofs.«118916_j13520557048097_1_alg».proof.Proof.Gen.Pre_finite_inputs
import proofs.«118916_j13520557048097_1_alg».proof.Proof.ReferenceRunP
import proofs.«118916_j13520557048097_1_alg».proof.Proof.ReferenceValue
import proofs.«118916_j13520557048097_1_alg».proof.Proof.KernelRun
import proofs.«118916_j13520557048097_1_alg».proof.Proof.Chain
import Idealize.ShloMosaic.Adequacy
import Idealize.ShloMosaic.Init

set_option maxRecDepth 16384

noncomputable section

namespace Cert.Proof

open Idealize.ShloMosaic Idealize.SL.Sem

/-- The word-level kernel program runs to completion and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- And the reference: its run, the result forgotten. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the arguments both programs end with the result array at the three-layer graph
    convolution of the arguments: the kernel program by the chain through its six regions, the reference by its run. -/
theorem algebraic : Cert.algebraic_KernelIdeal_ReferenceIdeal := by
  intro m ρ m' ρ' _ hagree
  refine ⟨fun c => Cert.GraphConv.encoder (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.RunP.run (F := Ideal) m' ρ')
    obtain ⟨e0, e1, e2, e3, e4, e5, e6, e7⟩ := hagree c
    rw [Cert.ReferenceIdeal.Bridge.result_eq m' c, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
